-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S28672x4096 : Shape := ⟨2, ![28672, 4096]⟩
abbrev S4096x14336 : Shape := ⟨2, ![4096, 14336]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S28672x4096 : S_.BroadcastsInDim S28672x4096 (![] : Fin 0 → Fin S28672x4096.rank)
  reducesTo_S28672x4096_S_d0_1 : S28672x4096.ReducesTo [0, 1] S_
  bcast_S_S4096x14336 : S_.BroadcastsInDim S4096x14336 (![] : Fin 0 → Fin S4096x14336.rank)
  reducesTo_S4096x14336_S_d0_1 : S4096x14336.ReducesTo [0, 1] S_

variable [Facts]

def fn {F : FTy → Type} [FloatOps F] (main_arg0 : FVec F S4096x4096 .f32) (main_arg1 : FVec F S28672x4096 .f32) (main_arg2 : FVec F S4096x14336 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S28672x4096 .f32 := Host.absf main_arg1
  let main_cst_0 : FVec F S_ .f32 := constant S_ .f32 0x7F800000#32
  let main_v5 : FVec F S28672x4096 .f32 := broadcastInDim S28672x4096 ![] bcast_S_S28672x4096 main_cst_0
  let main_v6 : IVec S28672x4096 1 := cmpf .olt main_v4 main_v5
  let main_c_1 : IVec S_ 1 := constantI S_ 1 1#1
  let main_v7 : IVec S_ 1 := (fun x v => Host.reduce IntOp.andi x v reducesTo_S28672x4096_S_d0_1 h_S_) main_v6 main_c_1
  let main_v8 : IVec S_ 1 := andi main_v3 main_v7
  let main_v9 : FVec F S4096x14336 .f32 := Host.absf main_arg2
  let main_cst_2 : FVec F S_ .f32 := constant S_ .f32 0x7F800000#32
  let main_v10 : FVec F S4096x14336 .f32 := broadcastInDim S4096x14336 ![] bcast_S_S4096x14336 main_cst_2
  let main_v11 : IVec S4096x14336 1 := cmpf .olt main_v9 main_v10
  let main_c_3 : IVec S_ 1 := constantI S_ 1 1#1
  let main_v12 : IVec S_ 1 := (fun x v => Host.reduce IntOp.andi x v reducesTo_S4096x14336_S_d0_1 h_S_) main_v11 main_c_3
  let main_v13 : IVec S_ 1 := andi main_v8 main_v12
  main_v13
-- ==== Kernel.lean ====
abbrev S4096x4096 : Shape := ⟨2, ![4096, 4096]⟩
abbrev S28672x4096 : Shape := ⟨2, ![28672, 4096]⟩
abbrev S4096x14336 : Shape := ⟨2, ![4096, 14336]⟩
abbrev S14336x4096 : Shape := ⟨2, ![14336, 4096]⟩
abbrev S512x4096 : Shape := ⟨2, ![512, 4096]⟩
abbrev S256x4096 : Shape := ⟨2, ![256, 4096]⟩
abbrev S4096x256 : Shape := ⟨2, ![4096, 256]⟩
abbrev S512x256 : Shape := ⟨2, ![512, 256]⟩

abbrev nBuf : Space → Nat
  | .hbm => 10
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S28672x4096, .f32⟩
  | .hbm, ⟨2, _⟩ => ⟨S4096x14336, .f32⟩
  | .hbm, ⟨3, _⟩ => ⟨S4096x4096, .bf16⟩
  | .hbm, ⟨4, _⟩ => ⟨S14336x4096, .f32⟩
  | .hbm, ⟨5, _⟩ => ⟨S14336x4096, .bf16⟩
  | .hbm, ⟨6, _⟩ => ⟨S14336x4096, .f32⟩
  | .hbm, ⟨7, _⟩ => ⟨S14336x4096, .bf16⟩
  | .hbm, ⟨8, _⟩ => ⟨S4096x14336, .bf16⟩
  | .hbm, ⟨9, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S4096x256, .bf16⟩
  | .local _ .vmem, ⟨7, _⟩ => ⟨S4096x256, .bf16⟩
  | .local _ .vmem, ⟨8, _⟩ => ⟨S512x4096, .f32⟩
  | .local _ .vmem, ⟨9, _⟩ => ⟨S512x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 56], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  slices_S28672x4096_S14336x4096_0_0 : S28672x4096.Slices ![0, 0] S14336x4096
  slices_S28672x4096_S14336x4096_14336_0 : S28672x4096.Slices ![14336, 0] S14336x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  dot_S512x4096_S256x4096_S512x256_1_1_0_0_n_n_wf : DotDims.WF S512x4096 S256x4096 S512x256 [1] [1] [0] [0] [] []
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S14336x4096.size a
  hwx0_1 : ∀ i : grid0.Coords, EltTy.bits .bf16 = 32 ∨ (Rect.block (s := S14336x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S14336x4096.size a
  hwx0_2 : ∀ i : grid0.Coords, EltTy.bits .bf16 = 32 ∨ (Rect.block (s := S14336x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x14336.size a
  hwx0_3 : ∀ i : grid0.Coords, EltTy.bits .bf16 = 32 ∨ (Rect.block (s := S4096x14336) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .f32 = 32 ∨ (Rect.block (s := S4096x4096) S512x4096.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S28672x4096 : Shape := ⟨2, ![28672, 4096]⟩
abbrev S4096x14336 : Shape := ⟨2, ![4096, 14336]⟩
abbrev S4096x28672 : Shape := ⟨2, ![4096, 28672]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S28672x4096, .f32⟩
  | .hbm, ⟨2, _⟩ => ⟨S4096x14336, .f32⟩
  | .hbm, ⟨3, _⟩ => ⟨S4096x28672, .f32⟩
  | .hbm, ⟨4, _⟩ => ⟨S4096x14336, .f32⟩
  | .hbm, ⟨5, _⟩ => ⟨S4096x14336, .f32⟩
  | .hbm, ⟨6, _⟩ => ⟨S4096x14336, .f32⟩
  | .hbm, ⟨7, _⟩ => ⟨S4096x14336, .f32⟩
  | .hbm, ⟨8, _⟩ => ⟨S_, .f32⟩
  | .hbm, ⟨9, _⟩ => ⟨S4096x14336, .f32⟩
  | .hbm, ⟨10, _⟩ => ⟨S4096x14336, .f32⟩
  | .hbm, ⟨11, _⟩ => ⟨S_, .f32⟩
  | .hbm, ⟨12, _⟩ => ⟨S4096x14336, .f32⟩
  | .hbm, ⟨13, _⟩ => ⟨S4096x14336, .f32⟩
  | .hbm, ⟨14, _⟩ => ⟨S4096x14336, .f32⟩
  | .hbm, ⟨15, _⟩ => ⟨S4096x14336, .f32⟩
  | .hbm, ⟨16, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S4096x28672_S4096x14336_0_0 : S4096x28672.Slices ![0, 0] S4096x14336
  slices_S4096x28672_S4096x14336_0_14336 : S4096x28672.Slices ![0, 14336] S4096x14336
  bcast_S_S4096x14336 : S_.BroadcastsInDim S4096x14336 (![] : Fin 0 → Fin S4096x14336.rank)
  dot_S4096x4096_S28672x4096_S4096x28672_1_1_0_0_n_n_wf : DotDims.WF S4096x4096 S28672x4096 S4096x28672 [1] [1] [0] [0] [] []
  dot_S4096x14336_S4096x14336_S4096x4096_1_1_0_0_n_n_wf : DotDims.WF S4096x14336 S4096x14336 S4096x4096 [1] [1] [0] [0] [] []

variable [Facts₀]

def dot_S4096x4096_S28672x4096_S4096x28672_1_1_0_0_n_n : DotDims S4096x4096 S28672x4096 S4096x28672 where
  lhsContracting := [1]
  rhsContracting := [1]
  lhsNonContracting := [0]
  rhsNonContracting := [0]
  lhsBatch := []
  rhsBatch := []
  wf := dot_S4096x4096_S28672x4096_S4096x28672_1_1_0_0_n_n_wf
def dot_S4096x14336_S4096x14336_S4096x4096_1_1_0_0_n_n : DotDims S4096x14336 S4096x14336 S4096x4096 where
  lhsContracting := [1]
  rhsContracting := [1]
  lhsNonContracting := [0]
  rhsNonContracting := [0]
  lhsBatch := []
  rhsBatch := []
  wf := dot_S4096x14336_S4096x14336_S4096x4096_1_1_0_0_n_n_wf

class Facts : Prop extends Facts₀ where

variable [Facts]
-- ==== Proof.LibMatrixRead.lean ====
/-
  Matrices read at natural coordinates, and sums cut into consecutive blocks.

  `rd x a b` is entry `(a, b)` of a rank-2 array as a total function of two naturals, so that a sum over a row or a
  column runs over `Finset.range` and a block of an array is the same accessor at shifted coordinates, with no bound
  proof carried inside the summand. `rowDot l r a b K` is row `a` of `l` against row `b` of `r` over the first
  `K` columns, one entry of `l · rᵀ`. `sum_range_blocks`: in any commutative additive monoid a sum over
  `range (B · L)` is the sum of the sums over its `B` consecutive blocks of length `L`.
-/
import Idealize.ShloMosaic.PureOps.Ideal
import Idealize.ShloMosaic.Lib.ValueIdx

noncomputable section

namespace Cert.MatrixRead

open Idealize.ShloMosaic Idealize.ShloMosaic.ValueIdx Finset

/-- Entry `(a, b)` of a matrix, total in the two natural coordinates (zero off the matrix; never read there). -/
def rd {n0 n1 : Nat} (x : (⟨2, ![n0, n1]⟩ : Shape).Idx → EReal) (a b : ℕ) : EReal :=
  if h : a < n0 ∧ b < n1 then x (ix2 ⟨a, h.1⟩ ⟨b, h.2⟩) else 0

/-- A matrix at an index is the accessor at the index's coordinates. -/
theorem rd_of_idx {n0 n1 : Nat} (x : (⟨2, ![n0, n1]⟩ : Shape).Idx → EReal) (j : (⟨2, ![n0, n1]⟩ : Shape).Idx)
    (a b : ℕ) (ha : (j 0).val = a) (hb : (j 1).val = b) : x j = rd x a b := by
  subst ha; subst hb
  unfold rd
  rw [dif_pos ⟨idx2_lt0 j, idx2_lt1 j⟩]
  exact congrArg x (eq_ix2 j)

/-- The accessor inside the matrix is the matrix at the index with those coordinates. -/
theorem rd_of_lt {n0 n1 : Nat} (x : (⟨2, ![n0, n1]⟩ : Shape).Idx → EReal) (a b : ℕ) (ha : a < n0) (hb : b < n1) :
    rd x a b = x (ix2 ⟨a, ha⟩ ⟨b, hb⟩) := by
  unfold rd
  rw [dif_pos ⟨ha, hb⟩]

/-- Row `a` of `l` against row `b` of `r`, over the first `K` columns: one entry of `l · rᵀ`. -/
def rowDot {n0 n1 n2 n3 : Nat} (l : (⟨2, ![n0, n1]⟩ : Shape).Idx → EReal) (r : (⟨2, ![n2, n3]⟩ : Shape).Idx → EReal)
    (a b K : ℕ) : EReal :=
  ∑ k ∈ range K, rd l a k * rd r b k

/-- A sum over `range (B · L)` is the sum of the sums over its `B` consecutive blocks of length `L`. -/
theorem sum_range_blocks {M : Type*} [AddCommMonoid M] (f : ℕ → M) (L : ℕ) :
    ∀ B : ℕ, ∑ i ∈ range (B * L), f i = ∑ s ∈ range B, ∑ n ∈ range L, f (L * s + n)
  | 0 => by simp
  | B + 1 => by
    rw [Nat.succ_mul, sum_range_add, sum_range_succ, sum_range_blocks f L B, Nat.mul_comm B L]

end Cert.MatrixRead

end
-- ==== Proof.Spec.lean ====
/-
  The gated MLP as one function of its three argument arrays, over the extended reals.

  With x : [4096, 4096] (tokens by hidden), w : [28672, 4096] (rows 0 … 14335 the gate projection, rows
  14336 … 28671 the up projection) and d : [4096, 14336] (the down projection), the result at (t, h) is

      Σ_{i < 14336}  ( g · σ(g) · u ) · d[h, i],     g = Σ_k x[t,k] · w[i,k],    u = Σ_k x[t,k] · w[14336 + i, k],

  σ the logistic function. Entries are read through a total accessor on natural coordinates, so that sums run over
  `Finset.range` and a block of an array is the same accessor at shifted coordinates.
-/
import proofs.«180954_j10093173146228_2_alg».proof.Proof.LibMatrixRead

noncomputable section

namespace Cert.GatedMlp

open Cert.MatrixRead Idealize.ShloMosaic Idealize.ShloMosaic.ValueIdx Finset

/-- The SwiGLU activation of a gate value `g` and an up value `u`: `(g · σ(g)) · u`. -/
def swiglu (g u : EReal) : EReal := (g * Ideal.logistic g) * u

/-- The hidden activation at token `t` and intermediate feature `i`: gate row `i`, up row `14336 + i`. -/
def hidden (x : (⟨2, ![4096, 4096]⟩ : Shape).Idx → EReal) (w : (⟨2, ![28672, 4096]⟩ : Shape).Idx → EReal) (t i : ℕ) : EReal :=
  swiglu (rowDot x w t i 4096) (rowDot x w t (14336 + i) 4096)

/-- THE RESULT: the hidden activations of token `j 0` against row `j 1` of the down projection. -/
def out (x : (⟨2, ![4096, 4096]⟩ : Shape).Idx → EReal) (w : (⟨2, ![28672, 4096]⟩ : Shape).Idx → EReal)
    (d : (⟨2, ![4096, 14336]⟩ : Shape).Idx → EReal) : (⟨2, ![4096, 4096]⟩ : Shape).Idx → EReal :=
  fun j => ∑ i ∈ range 14336, hidden x w (j 0).val i * rd d (j 1).val i

end Cert.GatedMlp

end
-- ==== Proof.RefSpec.lean ====
/-
  The reference computes the specification. Its last stage is the contraction over the 14336 intermediate features of
  the elementwise product `(g · (1 / (1 + e^(-g)))) · u` with the down projection, where `g` and `u` are columns
  `i` and `14336 + i` of the one fused product `x · wᵀ`. Read index by index: each contraction is a sum over a
  `Fin` range, re-indexed to `Finset.range`; each slice shifts a column coordinate; the quotient `1 / (1 + e^(-g))`
  is the logistic function by definition, the constant `1.0` denoting the real number one.
-/
import proofs.«180954_j10093173146228_2_alg».proof.Proof.Gen.ReferenceIdeal.Read
import proofs.«180954_j10093173146228_2_alg».proof.Proof.Spec

noncomputable section

namespace Cert.GatedMlp.Ref

open Cert.ReferenceIdeal Cert.ReferenceIdeal.Gen Cert.ReferenceIdeal.Read Cert.GatedMlp Cert.MatrixRead
open Idealize.ShloMosaic Idealize.ShloMosaic.ValueIdx Finset

/-- The f32 pattern of `1.0` denotes the real number one. -/
theorem ofBits_one : Ideal.ofBits .f32 0x3F800000#32 = 1 := by
  simp [Ideal.ofBits, Ideal.ieee, -EReal.coe_mul]; norm_num

/-- The fused product `x · wᵀ` at `(t, o)`: row `t` of `x` against row `o` of `w`. -/
theorem fused_apply (x0 : (⟨S4096x4096, .f32⟩ : BufTy).Contents (Elt Ideal)) (x1 : (⟨S28672x4096, .f32⟩ : BufTy).Contents (Elt Ideal))
    (j : S4096x28672.Idx) :
    val_main_v0 (F := Ideal) x0 x1 j = rowDot x0 x1 (j 0).val (j 1).val 4096 := by
  rw [val_main_v0_apply]
  unfold rowDot
  rw [← Fin.sum_univ_eq_sum_range (fun k => rd x0 (j 0).val k * rd x1 (j 1).val k) 4096]
  refine Finset.sum_congr rfl fun k _ => ?_
  rw [rd_of_idx x0 (lidx_main_v0 j k) (j 0).val k.val rfl rfl, rd_of_idx x1 (ridx_main_v0 j k) (j 1).val k.val rfl rfl]

/-- The product of the activated gate half with the up half, at `(t, i)`, is the hidden activation. -/
theorem hidden_apply (x0 : (⟨S4096x4096, .f32⟩ : BufTy).Contents (Elt Ideal)) (x1 : (⟨S28672x4096, .f32⟩ : BufTy).Contents (Elt Ideal))
    (j : S4096x14336.Idx) :
    val_main_v4 (F := Ideal) x0 x1 j = hidden x0 x1 (j 0).val (j 1).val := by
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply, val_main_v1_apply, val_main_v2_apply, fused_apply, fused_apply]
  simp only [Ideal.mulf_def, Ideal.hostDivf_def, Ideal.addf_def, Ideal.hostUnary_exp_def, Ideal.hostNegf_def, Ideal.negf_def,
    Ideal.ofBits_def, ofBits_one]
  rfl

/-- THE REFERENCE'S RESULT is the specification of its arguments. -/
theorem result_eq (x0 : (⟨S4096x4096, .f32⟩ : BufTy).Contents (Elt Ideal)) (x1 : (⟨S28672x4096, .f32⟩ : BufTy).Contents (Elt Ideal))
    (x2 : (⟨S4096x14336, .f32⟩ : BufTy).Contents (Elt Ideal)) :
    val_main_v5 (F := Ideal) x0 x1 x2 = out x0 x1 x2 := by
  funext j
  rw [val_main_v5_apply]
  unfold out
  rw [← Fin.sum_univ_eq_sum_range (fun k => hidden x0 x1 (j 0).val k * rd x2 (j 1).val k) 14336]
  refine Finset.sum_congr rfl fun k _ => ?_
  rw [hidden_apply, rd_of_idx x2 (ridx_main_v5 j k) (j 1).val k.val rfl rfl]

end Cert.GatedMlp.Ref

end
-- ==== Proof.KernelStep.lean ====
/-
  One grid point of the kernel, read at an index. The body's store is the accumulator plus, over the 256 intermediate
  features of the point's tile, the SwiGLU activation of (row p of the x block against row n of the gate block, row p
  of the x block against row n of the up block) times entry (q, n) of the down block. The two products into a zero
  accumulator are plain sums over the 4096 hidden features; the rounding to bf16 between them is the identity on the
  extended reals; the reset stores zero.
-/
import proofs.«180954_j10093173146228_2_alg».proof.Proof.Gen.KernelIdeal.Skeleton
import proofs.«180954_j10093173146228_2_alg».proof.Proof.Spec
import Idealize.ShloMosaic.Lib.Pipeline.Value
import Idealize.ShloMosaic.PureOps.Ideal.Laws

noncomputable section

namespace Cert.GatedMlp.Step

open Cert.KernelIdeal Cert.KernelIdeal.Gen Cert.GatedMlp Cert.MatrixRead
open Idealize.ShloMosaic Idealize.ShloMosaic.ValueIdx Finset

/-- A [512, 4096] block against a [256, 4096] block, both contracted over their 4096 columns, into a zero accumulator:
    at (p, n), row p against row n. -/
theorem proj_apply (l : FVec Ideal S512x4096 .bf16) (r : FVec Ideal S256x4096 .bf16) (j : S512x256.Idx) :
    matmul dot_S512x4096_S256x4096_S512x256_1_1_0_0_n_n none l r (constant S512x256 .f32 0x00000000#32) j
      = rowDot l r (j 0).val (j 1).val 4096 := by
  simp only [matmul]
  rw [Ideal.matmul_constant_zero_apply, ← Equiv.sum_comp (contrEquiv1 dot_S512x4096_S256x4096_S512x256_1_1_0_0_n_n 4096 rfl rfl).symm]
  unfold rowDot
  rw [← Fin.sum_univ_eq_sum_range (fun k => rd l (j 0).val k * rd r (j 1).val k) 4096]
  refine Finset.sum_congr rfl fun k _ => ?_
  have hk := contrEquiv1_symm_val dot_S512x4096_S256x4096_S512x256_1_1_0_0_n_n 4096 rfl rfl k
  have l0 : ∀ q, (dot_S512x4096_S256x4096_S512x256_1_1_0_0_n_n.lhsIdx j q 0).val = (j 0).val := fun q => by
    unfold DotDims.lhsIdx
    rw [dif_neg (show ¬(0 : Fin S512x4096.rank) ∈ dot_S512x4096_S256x4096_S512x256_1_1_0_0_n_n.lhsBatch by decide),
      dif_pos (show (0 : Fin S512x4096.rank) ∈ dot_S512x4096_S256x4096_S512x256_1_1_0_0_n_n.lhsNonContracting by decide)]
    rfl
  have r0 : ∀ q, (dot_S512x4096_S256x4096_S512x256_1_1_0_0_n_n.rhsIdx j q 0).val = (j 1).val := fun q => by
    unfold DotDims.rhsIdx
    rw [dif_neg (show ¬(0 : Fin S256x4096.rank) ∈ dot_S512x4096_S256x4096_S512x256_1_1_0_0_n_n.rhsBatch by decide),
      dif_pos (show (0 : Fin S256x4096.rank) ∈ dot_S512x4096_S256x4096_S512x256_1_1_0_0_n_n.rhsNonContracting by decide)]
    rfl
  rw [rd_of_idx l _ (j 0).val k.val (l0 _) ((dot_S512x4096_S256x4096_S512x256_1_1_0_0_n_n.lhsIdx_val_of_single rfl j _).trans hk),
    rd_of_idx r _ (j 1).val k.val (r0 _) ((dot_S512x4096_S256x4096_S512x256_1_1_0_0_n_n.rhsIdx_val_of_single rfl j _).trans hk)]

/-- A [512, 256] tile of activations against a [4096, 256] block, both contracted over their 256 columns, into a zero
    accumulator: at (p, q), the sum over the tile's features of the activation at (p, n) times the block at (q, n). -/
theorem down_apply (a : FVec Ideal S512x256 .bf16) (r : FVec Ideal S4096x256 .bf16) (j : S512x4096.Idx) :
    matmul dot_S512x256_S4096x256_S512x4096_1_1_0_0_n_n none a r (constant S512x4096 .f32 0x00000000#32) j
      = ∑ n : Fin 256, a (ix2 (j 0) n) * rd r (j 1).val n.val := by
  simp only [matmul]
  rw [Ideal.matmul_constant_zero_apply, ← Equiv.sum_comp (contrEquiv1 dot_S512x256_S4096x256_S512x4096_1_1_0_0_n_n 256 rfl rfl).symm]
  refine Finset.sum_congr rfl fun k _ => ?_
  have hk := contrEquiv1_symm_val dot_S512x256_S4096x256_S512x4096_1_1_0_0_n_n 256 rfl rfl k
  have l0 : ∀ q, (dot_S512x256_S4096x256_S512x4096_1_1_0_0_n_n.lhsIdx j q 0).val = (j 0).val := fun q => by
    unfold DotDims.lhsIdx
    rw [dif_neg (show ¬(0 : Fin S512x256.rank) ∈ dot_S512x256_S4096x256_S512x4096_1_1_0_0_n_n.lhsBatch by decide),
      dif_pos (show (0 : Fin S512x256.rank) ∈ dot_S512x256_S4096x256_S512x4096_1_1_0_0_n_n.lhsNonContracting by decide)]
    rfl
  have r0 : ∀ q, (dot_S512x256_S4096x256_S512x4096_1_1_0_0_n_n.rhsIdx j q 0).val = (j 1).val := fun q => by
    unfold DotDims.rhsIdx
    rw [dif_neg (show ¬(0 : Fin S4096x256.rank) ∈ dot_S512x256_S4096x256_S512x4096_1_1_0_0_n_n.rhsBatch by decide),
      dif_pos (show (0 : Fin S4096x256.rank) ∈ dot_S512x256_S4096x256_S512x4096_1_1_0_0_n_n.rhsNonContracting by decide)]
    rfl
  have el : dot_S512x256_S4096x256_S512x4096_1_1_0_0_n_n.lhsIdx j ((contrEquiv1 dot_S512x256_S4096x256_S512x4096_1_1_0_0_n_n 256 rfl rfl).symm k)
      = ix2 (j 0) k := funext fun c => Fin.ext (by
    match c with
    | ⟨0, _⟩ => exact l0 _
    | ⟨1, _⟩ => exact (dot_S512x256_S4096x256_S512x4096_1_1_0_0_n_n.lhsIdx_val_of_single rfl j _).trans hk)
  rw [el, rd_of_idx r _ (j 1).val k.val (r0 _) ((dot_S512x256_S4096x256_S512x4096_1_1_0_0_n_n.rhsIdx_val_of_single rfl j _).trans hk)]
  rfl

/-- THE RESET stores zero. -/
theorem reset_apply (y : S512x4096.Idx) : k0_pay1 (F := Ideal) y = 0 := by
  show Ideal.ofBits .f32 0x00000000#32 = 0
  exact Ideal.ofBits_zero_f32

/-- THE STEP at an index: the accumulator there plus the tile's 256 terms. -/
theorem step_apply (x0 : Vec Ideal S512x4096 .bf16) (x1 x2 : Vec Ideal S256x4096 .bf16) (x3 : Vec Ideal S4096x256 .bf16)
    (acc : Vec Ideal S512x4096 .f32) (y : S512x4096.Idx) :
    k0_pay2 (F := Ideal) x0 x1 x2 x3 acc y
      = acc y + ∑ n ∈ range 256,
          swiglu (rowDot x0 x1 (y 0).val n 4096) (rowDot x0 x2 (y 0).val n 4096) * rd x3 (y 1).val n := by
  unfold k0_pay2
  simp only [shapeCast_self]
  refine (addf_apply _ _ y).trans ?_
  refine congrArg (acc y + ·) ?_
  refine (down_apply _ x3 y).trans ?_
  rw [← Fin.sum_univ_eq_sum_range (fun n => swiglu (rowDot x0 x1 (y 0).val n 4096) (rowDot x0 x2 (y 0).val n 4096) * rd x3 (y 1).val n) 256]
  refine Finset.sum_congr rfl fun n _ => ?_
  refine congrArg (· * rd x3 (y 1).val n.val) ?_
  exact congrArg₂ (fun g u : EReal => (g * Ideal.logistic g) * u) (proj_apply x0 x1 (ix2 (y 0) n)) (proj_apply x0 x2 (ix2 (y 0) n))

end Cert.GatedMlp.Step

end
-- ==== Proof.KernelBlocks.lean ====
/-
  The kernel's input blocks, read at natural coordinates of the argument arrays. Before the launch the host rounds
  `x`, the two row halves of the fused weight and the down projection to bf16 — the identity on the extended reals —
  so each staged array is an argument array, the up half shifted by 14336 rows. At grid point `t = 56 · r + s`
  (row tile `r`, feature tile `s`) the `x` block holds rows `512 · r …`, the gate and up blocks rows
  `256 · s …` of their halves, and the down block columns `256 · s …`: an element of a block sits at block index
  times block size plus its coordinate inside the block.
-/
import proofs.«180954_j10093173146228_2_alg».proof.Proof.Gen.KernelIdeal.Frame
import proofs.«180954_j10093173146228_2_alg».proof.Proof.Spec
import Idealize.ShloMosaic.Lib.Pipeline.Value
import Idealize.ShloMosaic.Lib.StableHlo.Run

noncomputable section

namespace Cert.GatedMlp.Blocks

open Cert.KernelIdeal Cert.KernelIdeal.Gen Cert.GatedMlp Cert.MatrixRead
open Idealize.ShloMosaic Idealize.ShloMosaic.TcCoe Idealize.ShloMosaic.ValueIdx Idealize.SL.Sem Finset

variable (m : (ℓ : Loc nD τ sig) → Buf (Elt Ideal) ℓ) (c : Dev nD)

/-- The three argument arrays as the launch finds them. -/
abbrev argX : S4096x4096.Idx → EReal := m ((c : Thread nD τ).loc main_arg0)
abbrev argW : S28672x4096.Idx → EReal := m ((c : Thread nD τ).loc main_arg1)
abbrev argD : S4096x14336.Idx → EReal := m ((c : Thread nD τ).loc main_arg2)

/-- The staged `x` is `x`. -/
theorem staged_x (j : S4096x4096.Idx) :
    (V m c main_v0 : S4096x4096.Idx → EReal) j = rd (argX m c) (j 0).val (j 1).val := by
  have e : (V m c main_v0 : S4096x4096.Idx → EReal)
      = truncf (F := Ideal) .bf16 (argX m c) Gen.bitsLt_bf16_f32 := by
    dsimp only [V, hostOps0]; after_results <;> rfl
  rw [e]
  exact rd_of_idx (argX m c) j _ _ rfl rfl

/-- The staged gate half at row `a` is the fused weight at row `a`. -/
theorem staged_gate (j : S14336x4096.Idx) :
    (V m c main_v2 : S14336x4096.Idx → EReal) j = rd (argW m c) (j 0).val (j 1).val := by
  have e : (V m c main_v2 : S14336x4096.Idx → EReal)
      = truncf (F := Ideal) .bf16 (extractStridedSlice S14336x4096 ![0, 0] (argW m c) Gen.slices_S28672x4096_S14336x4096_0_0) Gen.bitsLt_bf16_f32 := by
    dsimp only [V, hostOps0]; after_results <;> rfl
  rw [e]
  refine (extractStridedSlice_apply ![0, 0] (argW m c) Gen.slices_S28672x4096_S14336x4096_0_0 j
    (ix2 ⟨(j 0).val, by have := idx2_lt0 j; omega⟩ ⟨(j 1).val, idx2_lt1 j⟩) (fun a => match a with
      | ⟨0, _⟩ => by show (j 0).val = 0 + (j 0).val; omega
      | ⟨1, _⟩ => by show (j 1).val = 0 + (j 1).val; omega)).trans ?_
  exact rd_of_idx (argW m c) _ _ _ rfl rfl

/-- The staged up half at row `a` is the fused weight at row `14336 + a`. -/
theorem staged_up (j : S14336x4096.Idx) :
    (V m c main_v4 : S14336x4096.Idx → EReal) j = rd (argW m c) (14336 + (j 0).val) (j 1).val := by
  have e : (V m c main_v4 : S14336x4096.Idx → EReal)
      = truncf (F := Ideal) .bf16 (extractStridedSlice S14336x4096 ![14336, 0] (argW m c) Gen.slices_S28672x4096_S14336x4096_14336_0) Gen.bitsLt_bf16_f32 := by
    dsimp only [V, hostOps0]; after_results <;> rfl
  rw [e]
  refine (extractStridedSlice_apply ![14336, 0] (argW m c) Gen.slices_S28672x4096_S14336x4096_14336_0 j
    (ix2 ⟨14336 + (j 0).val, by have := idx2_lt0 j; omega⟩ ⟨(j 1).val, idx2_lt1 j⟩) (fun a => match a with
      | ⟨0, _⟩ => by show 14336 + (j 0).val = 14336 + (j 0).val; omega
      | ⟨1, _⟩ => by show (j 1).val = 0 + (j 1).val; omega)).trans ?_
  exact rd_of_idx (argW m c) _ _ _ rfl rfl

/-- The staged down projection is the down projection. -/
theorem staged_down (j : S4096x14336.Idx) :
    (V m c main_v5 : S4096x14336.Idx → EReal) j = rd (argD m c) (j 0).val (j 1).val := by
  have e : (V m c main_v5 : S4096x14336.Idx → EReal)
      = truncf (F := Ideal) .bf16 (argD m c) Gen.bitsLt_bf16_f32 := by
    dsimp only [V, hostOps0]; after_results <;> rfl
  rw [e]
  exact rd_of_idx (argD m c) j _ _ rfl rfl

/-- The printed index maps, decided over the grid: the row tile is `t / 56`, the feature tile `t % 56`. -/
theorem idx_facts : ∀ t : Fin cfg0.N,
    win0_0.index t (0 : Fin 2) = t.val / 56 ∧ win0_0.index t (1 : Fin 2) = 0
    ∧ win0_1.index t (0 : Fin 2) = t.val % 56 ∧ win0_1.index t (1 : Fin 2) = 0
    ∧ win0_2.index t (0 : Fin 2) = t.val % 56 ∧ win0_2.index t (1 : Fin 2) = 0
    ∧ win0_3.index t (0 : Fin 2) = 0 ∧ win0_3.index t (1 : Fin 2) = t.val % 56 :=
  (by decide +kernel : ∀ t : Fin grid0.N, _)

/-- The `x` block at point `t`: rows `512 · (t / 56) …`. -/
theorem rd_blk_x (t : Fin cfg0.N) (p k : ℕ) (hp : p < 512) (hk : k < 4096) :
    rd (n0 := 512) (n1 := 4096) (iblk m c 0 t) p k = rd (argX m c) (512 * (t.val / 56) + p) k := by
  obtain ⟨e0, e1, -⟩ := idx_facts t
  refine (rd_of_lt (n0 := 512) (n1 := 4096) (iblk m c 0 t) p k hp hk).trans ?_
  show (V m c main_v0 : S4096x4096.Idx → EReal) (((cfg0.win 0).blk t).view.emb (ix2 ⟨p, hp⟩ ⟨k, hk⟩)) = _
  refine (staged_x m c _).trans ?_
  have h0 : (((cfg0.win 0).blk t).view.emb (ix2 ⟨p, hp⟩ ⟨k, hk⟩) 0).val = win0_0.index t (0 : Fin 2) * 512 + 1 * p := rfl
  have h1 : (((cfg0.win 0).blk t).view.emb (ix2 ⟨p, hp⟩ ⟨k, hk⟩) 1).val = win0_0.index t (1 : Fin 2) * 4096 + 1 * k := rfl
  rw [h0, h1, e0, e1, show t.val / 56 * 512 + 1 * p = 512 * (t.val / 56) + p from by omega, show 0 * 4096 + 1 * k = k from by omega]

/-- The gate block at point `t`: rows `256 · (t % 56) …` of the gate half. -/
theorem rd_blk_gate (t : Fin cfg0.N) (n k : ℕ) (hn : n < 256) (hk : k < 4096) :
    rd (n0 := 256) (n1 := 4096) (iblk m c 1 t) n k = rd (argW m c) (256 * (t.val % 56) + n) k := by
  obtain ⟨-, -, e0, e1, -⟩ := idx_facts t
  refine (rd_of_lt (n0 := 256) (n1 := 4096) (iblk m c 1 t) n k hn hk).trans ?_
  show (V m c main_v2 : S14336x4096.Idx → EReal) (((cfg0.win 1).blk t).view.emb (ix2 ⟨n, hn⟩ ⟨k, hk⟩)) = _
  refine (staged_gate m c _).trans ?_
  have h0 : (((cfg0.win 1).blk t).view.emb (ix2 ⟨n, hn⟩ ⟨k, hk⟩) 0).val = win0_1.index t (0 : Fin 2) * 256 + 1 * n := rfl
  have h1 : (((cfg0.win 1).blk t).view.emb (ix2 ⟨n, hn⟩ ⟨k, hk⟩) 1).val = win0_1.index t (1 : Fin 2) * 4096 + 1 * k := rfl
  rw [h0, h1, e0, e1, show t.val % 56 * 256 + 1 * n = 256 * (t.val % 56) + n from by omega, show 0 * 4096 + 1 * k = k from by omega]

/-- The up block at point `t`: rows `256 · (t % 56) …` of the up half, rows `14336 + 256 · (t % 56) …` of the fused weight. -/
theorem rd_blk_up (t : Fin cfg0.N) (n k : ℕ) (hn : n < 256) (hk : k < 4096) :
    rd (n0 := 256) (n1 := 4096) (iblk m c 2 t) n k = rd (argW m c) (14336 + (256 * (t.val % 56) + n)) k := by
  obtain ⟨-, -, -, -, e0, e1, -⟩ := idx_facts t
  refine (rd_of_lt (n0 := 256) (n1 := 4096) (iblk m c 2 t) n k hn hk).trans ?_
  show (V m c main_v4 : S14336x4096.Idx → EReal) (((cfg0.win 2).blk t).view.emb (ix2 ⟨n, hn⟩ ⟨k, hk⟩)) = _
  refine (staged_up m c _).trans ?_
  have h0 : (((cfg0.win 2).blk t).view.emb (ix2 ⟨n, hn⟩ ⟨k, hk⟩) 0).val = win0_2.index t (0 : Fin 2) * 256 + 1 * n := rfl
  have h1 : (((cfg0.win 2).blk t).view.emb (ix2 ⟨n, hn⟩ ⟨k, hk⟩) 1).val = win0_2.index t (1 : Fin 2) * 4096 + 1 * k := rfl
  rw [h0, h1, e0, e1, show t.val % 56 * 256 + 1 * n = 256 * (t.val % 56) + n from by omega, show 0 * 4096 + 1 * k = k from by omega]

/-- The down block at point `t`: columns `256 · (t % 56) …`. -/
theorem rd_blk_down (t : Fin cfg0.N) (q n : ℕ) (hq : q < 4096) (hn : n < 256) :
    rd (n0 := 4096) (n1 := 256) (iblk m c 3 t) q n = rd (argD m c) q (256 * (t.val % 56) + n) := by
  obtain ⟨-, -, -, -, -, -, e0, e1⟩ := idx_facts t
  refine (rd_of_lt (n0 := 4096) (n1 := 256) (iblk m c 3 t) q n hq hn).trans ?_
  show (V m c main_v5 : S4096x14336.Idx → EReal) (((cfg0.win 3).blk t).view.emb (ix2 ⟨q, hq⟩ ⟨n, hn⟩)) = _
  refine (staged_down m c _).trans ?_
  have h0 : (((cfg0.win 3).blk t).view.emb (ix2 ⟨q, hq⟩ ⟨n, hn⟩) 0).val = win0_3.index t (0 : Fin 2) * 4096 + 1 * q := rfl
  have h1 : (((cfg0.win 3).blk t).view.emb (ix2 ⟨q, hq⟩ ⟨n, hn⟩) 1).val = win0_3.index t (1 : Fin 2) * 256 + 1 * n := rfl
  rw [h0, h1, e0, e1, show 0 * 4096 + 1 * q = q from by omega, show t.val % 56 * 256 + 1 * n = 256 * (t.val % 56) + n from by omega]

end Cert.GatedMlp.Blocks

end
-- ==== Proof.KernelSpec.lean ====
/-
  The kernel computes the specification. The output tile of row tile `r` is reset at the first of its 56 consecutive
  grid points and accumulated at the other 55, so what the last of them writes back is the fold of the whole run:
  zero plus, for `s = 0 … 55`, the 256 terms of feature tile `s`. Read through the blocks those are the terms
  `256 · s … 256 · s + 255` of the specification's sum over the 14336 intermediate features, at row
  `512 · r + p` and column `q`; fifty-six blocks of 256 consecutive terms make up the whole sum.
-/
import proofs.«180954_j10093173146228_2_alg».proof.Proof.Gen.KernelIdeal.Value
import proofs.«180954_j10093173146228_2_alg».proof.Proof.KernelStep
import proofs.«180954_j10093173146228_2_alg».proof.Proof.KernelBlocks

noncomputable section

namespace Cert.GatedMlp.Kernel

open Cert.KernelIdeal Cert.KernelIdeal.Gen Cert.GatedMlp Cert.GatedMlp.Blocks Cert.MatrixRead
open Idealize.ShloMosaic Idealize.ShloMosaic.TcCoe Idealize.ShloMosaic.ValueIdx Idealize.SL.Sem Finset

variable (m : (ℓ : Loc nD τ sig) → Buf (Elt Ideal) ℓ) (c : Dev nD)

/-- What grid point `n` adds at place `y` of its output tile: the 256 terms of feature tile `n % 56`, at row
    `512 · (n / 56) + y 0` of `x` and row `y 1` of the down projection. -/
def addend (n : ℕ) (y : S512x4096.Idx) : EReal :=
  ∑ n' ∈ range 256, hidden (argX m c) (argW m c) (512 * (n / 56) + (y 0).val) (256 * (n % 56) + n')
    * rd (argD m c) (y 1).val (256 * (n % 56) + n')

/-- The body at point `t` over its four input blocks: the accumulator plus the point's addend. -/
theorem tile_eq (t : Fin cfg0.N) (acc : Vec Ideal S512x4096 .f32) (y : S512x4096.Idx) :
    k0_pay2 (F := Ideal) (iblk m c 0 t) (iblk m c 1 t) (iblk m c 2 t) (iblk m c 3 t) acc y = acc y + addend m c t.val y := by
  refine (Step.step_apply (iblk m c 0 t) (iblk m c 1 t) (iblk m c 2 t) (iblk m c 3 t) acc y).trans ?_
  refine congrArg (acc y + ·) ?_
  unfold addend
  refine Finset.sum_congr rfl fun n' hn' => ?_
  have hn : n' < 256 := Finset.mem_range.mp hn'
  have hy0 : (y 0).val < 512 := idx2_lt0 y
  have hy1 : (y 1).val < 4096 := idx2_lt1 y
  have eg : rowDot (n0 := 512) (n1 := 4096) (n2 := 256) (n3 := 4096) (iblk m c 0 t) (iblk m c 1 t) (y 0).val n' 4096
      = rowDot (argX m c) (argW m c) (512 * (t.val / 56) + (y 0).val) (256 * (t.val % 56) + n') 4096 :=
    Finset.sum_congr rfl fun k hk => congrArg₂ (fun a b : EReal => a * b)
      (rd_blk_x m c t (y 0).val k hy0 (Finset.mem_range.mp hk)) (rd_blk_gate m c t n' k hn (Finset.mem_range.mp hk))
  have eu : rowDot (n0 := 512) (n1 := 4096) (n2 := 256) (n3 := 4096) (iblk m c 0 t) (iblk m c 2 t) (y 0).val n' 4096
      = rowDot (argX m c) (argW m c) (512 * (t.val / 56) + (y 0).val) (14336 + (256 * (t.val % 56) + n')) 4096 :=
    Finset.sum_congr rfl fun k hk => congrArg₂ (fun a b : EReal => a * b)
      (rd_blk_x m c t (y 0).val k hy0 (Finset.mem_range.mp hk)) (rd_blk_up m c t n' k hn (Finset.mem_range.mp hk))
  exact congrArg₂ (fun a b : EReal => a * b) (congrArg₂ swiglu eg eu) (rd_blk_down m c t (y 1).val n' hy1 hn)

/-- THE KERNEL'S RESULT ARRAY is the specification of the argument arrays. -/
theorem result_eq : Cert.KernelIdeal.Value.G4 m c = out (argX m c) (argW m c) (argD m c) := by
  funext i
  have hi0 : (i 0).val < 4096 := idx2_lt0 i
  have hi1 : (i 1).val < 4096 := idx2_lt1 i
  have hN : cfg0.N = 448 := N_0
  have hr : Cert.KernelIdeal.Value.run4Of i = (i 0).val / 512 := by
    show 1 * ((i 0).val / 512 - 0) + 1 * ((i 1).val / 4096 - 0) = _
    omega
  unfold Cert.KernelIdeal.Value.G4
  rw [dif_pos (by rw [hr, hN]; omega)]
  refine (Pipeline.accAt_add_apply (ι := S512x4096.Idx) (β := EReal) (Cert.KernelIdeal.Value.reset4 m c) (Cert.KernelIdeal.Value.step4 m c)
    (fun _ => 0) (addend m c) (56 * Cert.KernelIdeal.Value.run4Of i) 55 ?_ ?_ 55 le_rfl _ (Cert.KernelIdeal.Value.loc4Of i)).trans ?_
  · intro h y
    unfold Cert.KernelIdeal.Value.reset4
    refine (tile_eq m c ⟨_, h⟩ _ y).trans ?_
    exact congrArg (· + addend m c _ y) (Step.reset_apply y)
  · intro n h acc y _ _
    unfold Cert.KernelIdeal.Value.step4
    exact tile_eq m c ⟨n, h⟩ acc y
  · unfold out
    rw [zero_add]
    refine Eq.trans ?_ (sum_range_blocks
      (fun i' => hidden (argX m c) (argW m c) (i 0).val i' * rd (argD m c) (i 1).val i') 256 56).symm
    refine Finset.sum_congr rfl fun s hs => ?_
    have hs' : s < 56 := Finset.mem_range.mp hs
    unfold addend
    have h1 : (56 * Cert.KernelIdeal.Value.run4Of i + s) / 56 = (i 0).val / 512 := by rw [hr]; omega
    have h2 : (56 * Cert.KernelIdeal.Value.run4Of i + s) % 56 = s := by omega
    have h3 : 512 * ((i 0).val / 512) + (Cert.KernelIdeal.Value.loc4Of i 0).val = (i 0).val := by
      show 512 * ((i 0).val / 512) + (i 0).val % 512 = _
      omega
    have h4 : (Cert.KernelIdeal.Value.loc4Of i 1).val = (i 1).val := by
      show (i 1).val % 4096 = _
      omega
    rw [h1, h2, h3, h4]

end Cert.GatedMlp.Kernel

end
-- ==== Proof.lean ====
/-
  A fused gated MLP (SwiGLU) against its two-einsum reference, over the extended reals.

  Both programs compute, at token `t` and hidden feature `h`,

      Σ_{i < 14336}  ( g · σ(g) · u ) · d[h, i],     g = Σ_k x[t,k] · w[i,k],    u = Σ_k x[t,k] · w[14336 + i, k]

  (`Proof/Spec.lean`). The reference forms the fused product `x · wᵀ` once, slices its two column halves, applies
  `g · (1 / (1 + e^(-g)))` and contracts with the down projection over all 14336 features at once
  (`Proof/RefSpec.lean`). The kernel slices the two row halves of `w` first, walks a grid of 8 row tiles by 56
  feature tiles, and for each row tile accumulates into its output tile the 56 partial contractions over 256 features
  each (`Proof/KernelStep.lean`: one point; `Proof/KernelBlocks.lean`: its blocks as pieces of the arguments;
  `Proof/KernelSpec.lean`: the fold of a run of 56 points is the whole sum). The two agree because a sum over
  14336 consecutive terms is the sum of its 56 consecutive blocks of 256 — commutativity and associativity of
  addition alone, so the finiteness of the inputs is never used; the roundings to bf16 on the kernel's side are the
  identity on the extended reals, and the kernel's logistic is the reference's quotient by definition.
  No operation of the kernel was rewritten for its idealization, so that claim has no conjunct. Each frame claim is
  the program's run with the result forgotten.
-/
import proofs.«180954_j10093173146228_2_alg».proof.Defs
import proofs.«180954_j10093173146228_2_alg».proof.Proof.Gen.Kernel.Frame
import proofs.«180954_j10093173146228_2_alg».proof.Proof.Gen.KernelIdeal.Value
import proofs.«180954_j10093173146228_2_alg».proof.Proof.Gen.Pre_finite_inputs
import proofs.«180954_j10093173146228_2_alg».proof.Proof.Gen.ReferenceIdeal.Run
import proofs.«180954_j10093173146228_2_alg».proof.Proof.RefSpec
import proofs.«180954_j10093173146228_2_alg».proof.Proof.KernelSpec
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the three arguments, the kernel's result array and the reference's result are both the
    specification of those arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v5_eq, Cert.GatedMlp.Ref.result_eq, (hagree c).1, (hagree c).2.1, (hagree c).2.2,
    Cert.GatedMlp.Kernel.result_eq]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
